-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1000 : Shape := ⟨3, ![4, 8192, 1000]⟩
abbrev S8192 : Shape := ⟨1, ![8192]⟩
abbrev S_ : Shape := ⟨0, ![]⟩

class Facts : Prop where
  bcast_S_S4x8192x1000 : S_.BroadcastsInDim S4x8192x1000 (![] : Fin 0 → Fin S4x8192x1000.rank)
  reducesTo_S4x8192x1000_S_d0_1_2 : S4x8192x1000.ReducesTo [0, 1, 2] S_
  h_S_ : 0 < S_.numel

variable [Facts]

def fn {F : FTy → Type} [FloatOps F] (main_arg0 : FVec F S4x8192x1000 .f32) (main_arg1 : IVec S8192 32) : IVec S_ 1 :=
  let main_v0 : FVec F S4x8192x1000 .f32 := Host.absf main_arg0
  let main_cst : FVec F S_ .f32 := constant S_ .f32 0x7F800000#32
  let main_v1 : FVec F S4x8192x1000 .f32 := broadcastInDim S4x8192x1000 ![] bcast_S_S4x8192x1000 main_cst
  let main_v2 : IVec S4x8192x1000 1 := cmpf .olt main_v0 main_v1
  let main_c : IVec S_ 1 := constantI S_ 1 1#1
  let main_v3 : IVec S_ 1 := (fun x v => Host.reduce IntOp.andi x v reducesTo_S4x8192x1000_S_d0_1_2 h_S_) main_v2 main_c
  main_v3
-- ==== Kernel.lean ====
abbrev S4x8192x1000 : Shape := ⟨3, ![4, 8192, 1000]⟩
abbrev S8192 : Shape := ⟨1, ![8192]⟩
abbrev S4x1x1000 : Shape := ⟨3, ![4, 1, 1000]⟩
abbrev S1x1024x1000 : Shape := ⟨3, ![1, 1024, 1000]⟩
abbrev S1x1x1000 : Shape := ⟨3, ![1, 1, 1000]⟩
abbrev S1024x1000 : Shape := ⟨2, ![1024, 1000]⟩
abbrev S1000 : Shape := ⟨1, ![1000]⟩
abbrev S1x1000 : Shape := ⟨2, ![1, 1000]⟩
abbrev S4x1000 : Shape := ⟨2, ![4, 1000]⟩
abbrev S_ : Shape := ⟨0, ![]⟩
abbrev S8192x1 : Shape := ⟨2, ![8192, 1]⟩
abbrev S4 : Shape := ⟨1, ![4]⟩

abbrev nBuf : Space → Nat
  | .hbm => 32
  | .vmem => 4
  | .smem => 0
  | _ => 0

abbrev bufTy : (tb : Table) → Fin (tcTables nBuf tb) → BufTy
  | .hbm, ⟨0, _⟩ => ⟨S4x8192x1000, .f32⟩
  | .hbm, ⟨1, _⟩ => ⟨S8192, .i32⟩
  | .hbm, ⟨2, _⟩ => ⟨S4x1x1000, .f32⟩
  | .hbm, ⟨3, _⟩ => ⟨S4x1000, .f32⟩
  | .hbm, ⟨4, _⟩ => ⟨S_, .f32⟩
  | .hbm, ⟨5, _⟩ => ⟨S4x1000, .f32⟩
  | .hbm, ⟨6, _⟩ => ⟨S4x1000, .f32⟩
  | .hbm, ⟨7, _⟩ => ⟨S_, .f32⟩
  | .hbm, ⟨8, _⟩ => ⟨S1000, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S_, .f32⟩
  | .hbm, ⟨18, _⟩ => ⟨S8192, .f32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S1x1000, .f32⟩
  | .hbm, ⟨24, _⟩ => ⟨S4x1000, .f32⟩
  | .hbm, ⟨25, _⟩ => ⟨S4x1000, .f32⟩
  | .hbm, ⟨26, _⟩ => ⟨S4x1000, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .local _ .vmem, ⟨0, _⟩ => ⟨S1x1024x1000, .f32⟩
  | .local _ .vmem, ⟨1, _⟩ => ⟨S1x1024x1000, .f32⟩
  | .local _ .vmem, ⟨2, _⟩ => ⟨S1x1x1000, .f32⟩
  | .local _ .vmem, ⟨3, _⟩ => ⟨S1x1x1000, .f32⟩
  | _, _ => ⟨S4x8192x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x1000_S1x1x1000_0_0_0 : ∀ a, (![0, 0, 0] : Fin 3 → Nat) a + S1x1x1000.size a ≤ S1x1x1000.size a
  h_S1x1x1000 : 0 < S1x1x1000.numel
  inb_S1x1024x1000_S1x1024x1000_0_0_0 : ∀ a, (![0, 0, 0] : Fin 3 → Nat) a + S1x1024x1000.size a ≤ S1x1024x1000.size a
  h_S1x1024x1000 : 0 < S1x1024x1000.numel
  shapeCasts_S1x1024x1000_S1024x1000 : S1x1024x1000.ShapeCasts S1024x1000
  reduces_S1024x1000_S1000 : S1024x1000.Reduces [0] S1000
  shapeCasts_S1000_S1x1000 : S1000.ShapeCasts S1x1000
  shapeCasts_S1x1x1000_S1x1000 : S1x1x1000.ShapeCasts S1x1000
  shapeCasts_S1x1000_S1x1x1000 : S1x1000.ShapeCasts S1x1x1000
  shapeCasts_S4x1x1000_S4x1000 : S4x1x1000.ShapeCasts S4x1000
  bcast_S_S4x1000 : S_.BroadcastsInDim S4x1000 (![] : Fin 0 → Fin S4x1000.rank)
  bcast_S_S1000 : S_.BroadcastsInDim S1000 (![] : Fin 0 → Fin S1000.rank)
  bcast_S_S8192 : S_.BroadcastsInDim S8192 (![] : Fin 0 → Fin S8192.rank)
  bcast_S8192_S8192x1_0 : S8192.BroadcastsInDim S8192x1 (![0] : Fin 1 → Fin S8192x1.rank)
  bcast_S1000_S1x1000_1 : S1000.BroadcastsInDim S1x1000 (![1] : Fin 1 → Fin S1x1000.rank)
  bcast_S1x1000_S4x1000_0_1 : S1x1000.BroadcastsInDim S4x1000 (![0, 1] : Fin 2 → Fin S4x1000.rank)
  reducesTo_S4x1000_S4_d1 : S4x1000.ReducesTo [1] S4
  h_S_ : 0 < S_.numel
  bcast_S_S4 : S_.BroadcastsInDim S4 (![] : Fin 0 → Fin S4.rank)
  scatter_S1000_S8192x1_S8192_n_0_0_1_wf : ScatterDims.WF S1000 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1000.size a ≤ S4x8192x1000.size a
  hwx0_0 : ∀ i : grid0.Coords, EltTy.bits .f32 = 32 ∨ (Rect.block (s := S4x8192x1000) S1x1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1000.size a ≤ S4x1x1000.size a
  hwx0_1 : ∀ i : grid0.Coords, EltTy.bits .f32 = 32 ∨ (Rect.block (s := S4x1x1000) S1x1x1000.size (cc0_transform_1 i) (hinb0_1 i)).WholeWords (EltTy.packing .f32)

variable [Facts₀]

def scatter_S1000_S8192x1_S8192_n_0_0_1 : ScatterDims S1000 S8192x1 S8192 where
  updateWindowDims := []
  insertedWindowDims := [0]
  scatterDimsToOperandDims := [0]
  indexVectorDim := 1
  wf := scatter_S1000_S8192x1_S8192_n_0_0_1_wf

abbrev win0_0 : Pipeline.Window sig grid0 :=
  Pipeline.Window.ofSpec (Memref.whole main_arg0) S1x1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8192x1000 : Shape := ⟨3, ![4, 8192, 1000]⟩
abbrev S8192 : Shape := ⟨1, ![8192]⟩
abbrev S_ : Shape := ⟨0, ![]⟩
abbrev S1000 : Shape := ⟨1, ![1000]⟩
abbrev S8192x1 : Shape := ⟨2, ![8192, 1]⟩
abbrev S4x1000 : Shape := ⟨2, ![4, 1000]⟩
abbrev S1x1000 : Shape := ⟨2, ![1, 1000]⟩
abbrev S4 : Shape := ⟨1, ![4]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1000, .f32⟩
  | .hbm, ⟨1, _⟩ => ⟨S8192, .i32⟩
  | .hbm, ⟨2, _⟩ => ⟨S_, .f32⟩
  | .hbm, ⟨3, _⟩ => ⟨S1000, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192, .f32⟩
  | .hbm, ⟨14, _⟩ => ⟨S1000, .f32⟩
  | .hbm, ⟨15, _⟩ => ⟨S_, .f32⟩
  | .hbm, ⟨16, _⟩ => ⟨S1000, .f32⟩
  | .hbm, ⟨17, _⟩ => ⟨S1000, .f32⟩
  | .hbm, ⟨18, _⟩ => ⟨S_, .f32⟩
  | .hbm, ⟨19, _⟩ => ⟨S4x1000, .f32⟩
  | .hbm, ⟨20, _⟩ => ⟨S_, .f32⟩
  | .hbm, ⟨21, _⟩ => ⟨S4x1000, .f32⟩
  | .hbm, ⟨22, _⟩ => ⟨S4x1000, .f32⟩
  | .hbm, ⟨23, _⟩ => ⟨S1x1000, .f32⟩
  | .hbm, ⟨24, _⟩ => ⟨S4x1000, .f32⟩
  | .hbm, ⟨25, _⟩ => ⟨S4x1000, .f32⟩
  | .hbm, ⟨26, _⟩ => ⟨S4x1000, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | _, _ => ⟨S4x8192x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S4x8192x1000_S4x1000_d1 : S4x8192x1000.ReducesTo [1] S4x1000
  h_S_ : 0 < S_.numel
  bcast_S_S4x1000 : S_.BroadcastsInDim S4x1000 (![] : Fin 0 → Fin S4x1000.rank)
  bcast_S1000_S1x1000_1 : S1000.BroadcastsInDim S1x1000 (![1] : Fin 1 → Fin S1x1000.rank)
  bcast_S1x1000_S4x1000_0_1 : S1x1000.BroadcastsInDim S4x1000 (![0, 1] : Fin 2 → Fin S4x1000.rank)
  reducesTo_S4x1000_S4_d1 : S4x1000.ReducesTo [1] S4
  bcast_S_S4 : S_.BroadcastsInDim S4 (![] : Fin 0 → Fin S4.rank)
  scatter_S1000_S8192x1_S8192_n_0_0_1_wf : ScatterDims.WF S1000 S8192x1 S8192 [] [0] [0] 1

variable [Facts₀]

def scatter_S1000_S8192x1_S8192_n_0_0_1 : ScatterDims S1000 S8192x1 S8192 where
  updateWindowDims := []
  insertedWindowDims := [0]
  scatterDimsToOperandDims := [0]
  indexVectorDim := 1
  wf := scatter_S1000_S8192x1_S8192_n_0_0_1_wf

class Facts : Prop extends Facts₀ where

variable [Facts]
-- ==== Proof.RefSum.lean ====
/-
  The reference, read as a function of the batch sums.

  The reference sums the logits over the batch axis (a sum from the initial value 0), divides by 8192 and
  then computes the loss: the histogram of the targets divided by 8192 is subtracted, the absolute value is
  taken and averaged over the 1000 classes.  Everything after the batch sum is one function  lossOf s tgt  of
  the 4 x 1000 array s of sums and of the targets; it is never opened.  The batch sum itself, at exit e and
  class l, is the plain sum over b < 8192 of X(e, b, l) on the extended reals.
-/
import proofs.«101069_j24172075942190_1_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen

/-- The loss as a function of the logits' sums over the batch (s, 4 x 1000) and of the targets: the mean over
    the classes of | s / 8192 - histogram(targets) / 8192 |. -/
def lossOf (s : FVec Ideal S4x1000 .f32) (tgt : (⟨S8192, .i32⟩ : BufTy).Contents (Elt Ideal)) : FVec Ideal S4 .f32 :=
  Host.divf (F := Ideal) (Host.reduceAdd (F := Ideal) (Host.absf (F := Ideal) (subf (F := Ideal) (Host.divf (F := Ideal) s (broadcastInDim S4x1000 ![] bcast_S_S4x1000 (constant (F := Ideal) S_ .f32 0x46000000#32))) (broadcastInDim S4x1000 ![0, 1] bcast_S1x1000_S4x1000_0_1 (broadcastInDim S1x1000 ![1] bcast_S1000_S1x1000_1 (Host.divf (F := Ideal) (Host.scatterAdd (F := Ideal) scatter_S1000_S8192x1_S8192_n_0_0_1 (broadcastInDim S1000 ![] bcast_S_S1000 (constant (F := Ideal) S_ .f32 0x00000000#32)) (broadcastInDim S8192x1 ![0] bcast_S8192_S8192x1_0 (select (cmpi .slt tgt (broadcastInDim S8192 ![] bcast_S_S8192 (constantI S_ 32 0#32))) (addi tgt (broadcastInDim S8192 ![] bcast_S_S8192 (constantI S_ 32 1000#32))) tgt)) (broadcastInDim S8192 ![] bcast_S_S8192 (constant (F := Ideal) S_ .f32 0x3F800000#32))) (broadcastInDim S1000 ![] bcast_S_S1000 (constant (F := Ideal) S_ .f32 0x46000000#32))))))) (constant (F := Ideal) S_ .f32 0x00000000#32) reducesTo_S4x1000_S4_d1 h_S_) (broadcastInDim S4 ![] bcast_S_S4 (constant (F := Ideal) S_ .f32 0x447A0000#32))

/-- The reference's result is the loss of its own batch sums. -/
theorem result_eq (x0 : (⟨S4x8192x1000, .f32⟩ : BufTy).Contents (Elt Ideal)) (x1 : (⟨S8192, .i32⟩ : BufTy).Contents (Elt Ideal)) :
    Read.val_main_v20 (F := Ideal) x0 x1
      = lossOf (Host.reduceAdd (F := Ideal) x0 (constant (F := Ideal) S_ .f32 0x00000000#32) reducesTo_S4x8192x1000_S4x1000_d1 h_S_) x1 := rfl

/-- The reference's batch sum at exit (i 0) and class (i 1): the sum of the column over the batch. -/
theorem sum_apply (x0 : (⟨S4x8192x1000, .f32⟩ : BufTy).Contents (Elt Ideal)) (i : S4x1000.Idx) :
    Host.reduceAdd (F := Ideal) x0 (constant (F := Ideal) S_ .f32 0x00000000#32) reducesTo_S4x8192x1000_S4x1000_d1 h_S_ i
      = ∑ b : Fin 8192, x0 (Read.idx_main_v11 i b) := by
  refine (Read.val_main_v11_apply x0 i).trans ?_
  rw [Read.val_main_cst_3_apply]
  show Ideal.ofBits .f32 0x00000000#32 + _ = _
  rw [Ideal.ofBits_zero_f32, zero_add]

end Cert.ReferenceIdeal.RefValue

end
-- ==== Proof.BodyValue.lean ====
/-
  What one run of the kernel body leaves in the output block.

  The body adds to the output block (one row of 1000 lanes) the column sums of its 1024 x 1000 input block.
  At the first batch tile of an exit the block is first overwritten with zeros and read back, so the body
  leaves  pay2 x 0 ; at every other tile it leaves  pay2 x acc  over what the tile before left (acc), where
  pay2 x acc = acc + colsum x  is the body's one arithmetic term.
-/
import proofs.«101069_j24172075942190_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl

/-- A tile that is not the first of its exit: the block ends at the body's term of the input block and of
    what the block held before. -/
theorem later_tile (c : Dev nD) (i : grid0.Coords) (a2 : Memref sig .tc .vmem S1x1024x1000 .f32) (h2 : a2.IsWhole)
    (a3 : Memref sig .tc .vmem S1x1x1000 .f32) (h3 : a3.IsWhole) (hc : ¬cond0_0 i)
    (x : Vec F S1x1024x1000 .f32) (acc : Vec F S1x1x1000 .f32) :
    out0_B_1 c i a2 h2 a3 h3 hc x acc = k0_pay2 x acc := by
  unfold out0_B_1
  rw [View.read_writes_eq_canon _ _ _ (cover0_B_1 c i a2 h2 a3 h3 hc x acc)]
  unfold kernelRun0_B
  dsimp only
  rw [View.canon_unit_zero zero3]
  simp only [View.readAt_eq_ld, h2.read_unread, h3.read_unread, View.ld_unit_zero (S := S1x1024x1000) zero3,
    View.ld_unit_zero (S := S1x1x1000) zero3]

/-- The first tile of an exit: the block is zeroed, read back, and ends at the body's term of the input block
    and of the zero block. -/
theorem first_tile (c : Dev nD) (i : grid0.Coords) (a2 : Memref sig .tc .vmem S1x1024x1000 .f32) (h2 : a2.IsWhole)
    (a3 : Memref sig .tc .vmem S1x1x1000 .f32) (h3 : a3.IsWhole) (hc : cond0_0 i)
    (x : Vec F S1x1024x1000 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x1000) zero3, View.readCov_unit_zero (S := S1x1x1000) _ zero3]
  simp only [View.readAt_eq_ld, h2.read_unread, View.ld_unit_zero (S := S1x1024x1000) zero3]

end Cert.KernelIdeal.Body

end
-- ==== Proof.ColSum.lean ====
/-
  The body's arithmetic at one lane, over the extended reals.

  The body's term  pay2 x acc  views the 1 x 1024 x 1000 input block as a 1024 x 1000 matrix, sums each of its
  1000 columns (a reduction along the row axis from the additive neutral), and adds that row of column sums
  to the 1 x 1 x 1000 output block.  At lane l it is therefore   acc(0,0,l) + sum over r < 1024 of x(0,r,l).
-/
import proofs.«101069_j24172075942190_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-- The zero block has the extended real 0 in every lane. -/
theorem zero_block_apply (y : S1x1x1000.Idx) : k0_pay1 (F := Ideal) y = 0 := by
  show Ideal.ofBits .f32 0x00000000#32 = 0
  exact Ideal.ofBits_zero_f32

/-- Lane l of the body's term: the block's lane plus the sum of column l of the input block. -/
theorem colsum_apply (x : Vec Ideal S1x1024x1000 .f32) (acc : Vec Ideal S1x1x1000 .f32) (l : Fin 1000) :
    k0_pay2 (F := Ideal) x acc (ix3 (0 : Fin 1) (0 : Fin 1) l)
      = acc (ix3 (0 : Fin 1) (0 : Fin 1) l) + ∑ r : Fin 1024, x (ix3 (0 : Fin 1) r l) := by
  unfold k0_pay2
  refine (shapeCast_apply _ _ (ix3 (0 : Fin 1) (0 : Fin 1) l) (ix2 (0 : Fin 1) l) ?_).trans ?_
  · rw [Shape.rowMajor_val_two, Shape.rowMajor_val_three]; rfl
  refine (addf_apply _ _ _).trans ?_
  refine congrArg₂ (· + ·) ?_ ?_
  · exact shapeCast_apply _ _ (ix2 (0 : Fin 1) l) (ix3 (0 : Fin 1) (0 : Fin 1) l)
      (by rw [Shape.rowMajor_val_two, Shape.rowMajor_val_three]; rfl)
  · refine (shapeCast_apply _ _ (ix2 (0 : Fin 1) l) (ix1 l)
      (by rw [Shape.rowMajor_val_two, Shape.rowMajor_val_one]; show l.val = 0 * 1000 + l.val; omega)).trans ?_
    refine (Ideal.multiReduction_add_single _ 0x00000000#32 reduces_S1024x1000_S1000 (.inl rfl) rfl (ix1 l)).trans ?_
    refine Finset.sum_congr rfl fun r _ => ?_
    exact shapeCast_apply _ _ _ (ix3 (0 : Fin 1) r l)
      (by rw [Shape.rowMajor_val_two, Shape.rowMajor_val_three]
          show (0 * 1024 + r.val) * 1000 + l.val = r.val * 1000 + l.val; omega)

end Cert.KernelIdeal.Body

end
-- ==== Proof.Running.lean ====
/-
  The running sum held by the output block, point by point.

  The grid is 4 exits x 8 batch tiles, visited exit by exit; point t is tile t % 8 of exit t / 8.  The input
  block at point t is rows 1024 (t % 8) ... 1024 (t % 8) + 1023 of exit t / 8 of the logits.  Writing
  col X e l b  for the entry (e, b, l) of the logits X (and 0 outside the array), the output block after
  point t holds, in lane l, the sum of  col X (t / 8) l b  over  b < 1024 (t % 8 + 1) : the first tile of an
  exit starts it from zero, every later tile appends its 1024 rows.  Only commutative-monoid laws of the
  extended reals are used (0 + a = a, and a sum over an interval split in two), so no finiteness is needed.
-/
import proofs.«101069_j24172075942190_1_alg».proof.Proof.BodyValue
import proofs.«101069_j24172075942190_1_alg».proof.Proof.ColSum

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Body

variable (m : (ℓ : Loc nD τ sig) → Buf (Elt Ideal) ℓ)

/-- Column (e, l) of a 4 x 8192 x 1000 array along its batch axis, as a sequence in the batch position:
    the array's entry inside the array, zero outside. -/
def col (X : S4x8192x1000.Idx → EReal) (e : ℕ) (l : Fin 1000) (b : ℕ) : EReal :=
  if h : e < 4 ∧ b < 8192 then X (ix3 (⟨e, h.1⟩ : Fin 4) (⟨b, h.2⟩ : Fin 8192) l) else 0

/-- Where the input window's block sits at point t: exit t / 8, batch tile t % 8, all lanes. -/
theorem tile_position : ∀ t : Fin cfg0.N, win0_0.index t (0 : Fin 3) = t.val / 8
    ∧ win0_0.index t (1 : Fin 3) = t.val % 8 ∧ win0_0.index t (2 : Fin 3) = 0 :=
  (by decide +kernel : ∀ t : Fin grid0.N, _)

/-- The input block at point t, as a 1 x 1024 x 1000 block of extended reals. -/
abbrev tile (c : Dev nD) (t : Fin cfg0.N) : Vec Ideal S1x1024x1000 .f32 := iblk m c 0 t

/-- Row r, lane l of the input block at point t is the logits' entry (t / 8, 1024 (t % 8) + r, l). -/
theorem tile_apply (c : Dev nD) (t : Fin cfg0.N) (r : Fin 1024) (l : Fin 1000) :
    tile m c t (ix3 (0 : Fin 1) r l)
      = col (V m c main_arg0) (t.val / 8) l (1024 * (t.val % 8) + r.val) := by
  obtain ⟨e0, e1, e2⟩ := tile_position t
  have hN : t.val < 32 := lt_of_lt_of_eq t.isLt (show cfg0.N = 32 from N_0)
  have hr : r.val < 1024 := r.isLt
  unfold col
  rw [dif_pos ⟨by omega, by omega⟩]
  unfold tile iblk
  rw [View.read_apply]
  show V m c main_arg0 _ = V m c main_arg0 _
  refine congrArg (V m c main_arg0) ?_
  funext a
  apply Fin.ext
  match a with
  | ⟨0, _⟩ => show win0_0.index t 0 * 1 + 1 * 0 = t.val / 8; omega
  | ⟨1, _⟩ => show win0_0.index t 1 * 1024 + 1 * r.val = 1024 * (t.val % 8) + r.val; omega
  | ⟨2, _⟩ => show win0_0.index t 2 * 1000 + 1 * l.val = l.val; omega

/-- The column sums of the input block at point t: 1024 consecutive entries of the column. -/
theorem tile_colsum (c : Dev nD) (t : Fin cfg0.N) (l : Fin 1000) :
    ∑ r : Fin 1024, tile m c t (ix3 (0 : Fin 1) r l)
      = ∑ r ∈ Finset.range 1024, col (V m c main_arg0) (t.val / 8) l (1024 * (t.val % 8) + r) := by
  rw [Finset.sum_range]
  exact Finset.sum_congr rfl fun r _ => tile_apply m c t r l

/-- After point n the output block holds, in lane l, the sum of the first 1024 (n % 8 + 1) entries of
    column (n / 8, l). -/
theorem running (c : Dev nD) : ∀ (n : ℕ) (h : n < cfg0.N) (l : Fin 1000),
    outsAt0 m c n h (ix3 (0 : Fin 1) (0 : Fin 1) l)
      = ∑ b ∈ Finset.range (1024 * (n % 8 + 1)), col (V m c main_arg0) (n / 8) l b
  | 0, h, l => by
    rw [outsAt0_A m c ⟨0, h⟩ rfl, first_tile]
    refine (colsum_apply (tile m c ⟨0, h⟩) (k0_pay1 (F := Ideal)) l).trans ?_
    rw [zero_block_apply, zero_add, tile_colsum]
    refine Finset.sum_congr rfl fun r _ => ?_
    show col _ (0 / 8) l (1024 * (0 % 8) + r) = col _ (0 / 8) l r
    rw [show 1024 * (0 % 8) + r = r by omega]
  | n + 1, h, l => by
    have hN : cfg0.N = 32 := N_0
    by_cases h0 : (n + 1) % 8 = 0
    · rw [outsAt0_A m c ⟨n + 1, h⟩ h0, first_tile]
      refine (colsum_apply (tile m c ⟨n + 1, h⟩) (k0_pay1 (F := Ideal)) l).trans ?_
      rw [zero_block_apply, zero_add, tile_colsum]
      show ∑ r ∈ Finset.range 1024, col _ ((n + 1) / 8) l (1024 * ((n + 1) % 8) + r) = _
      rw [h0]
      refine Finset.sum_congr rfl fun r _ => ?_
      rw [show 1024 * 0 + r = r by omega]
    · rw [outsAt0_B m c ⟨n + 1, h⟩ h0, later_tile]
      refine (colsum_apply (tile m c ⟨n + 1, h⟩) _ l).trans ?_
      rw [tile_colsum]
      show outsAt0 m c n _ (ix3 (0 : Fin 1) (0 : Fin 1) l)
          + ∑ r ∈ Finset.range 1024, col _ ((n + 1) / 8) l (1024 * ((n + 1) % 8) + r) = _
      rw [running c n _ l, show n / 8 = (n + 1) / 8 by omega, show n % 8 + 1 = (n + 1) % 8 by omega,
        show 1024 * ((n + 1) % 8 + 1) = 1024 * ((n + 1) % 8) + 1024 by omega, Finset.sum_range_add]

end Cert.KernelIdeal.Acc

end
-- ==== Proof.BatchSum.lean ====
/-
  The array the kernel leaves: the logits summed over the batch axis.

  The output block of exit e is written back once, after the exit's last batch tile (points 8 e + 7), when it
  holds the whole column sums  sum over b < 8192 of X(e, b, l).  The four write-backs tile the 4 x 1 x 1000
  result array, so after the run the array is  batchSum X : (e, 0, l) |-> sum over b of X(e, b, l).
-/
import proofs.«101069_j24172075942190_1_alg».proof.Proof.Running

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Body

variable (m : (ℓ : Loc nD τ sig) → Buf (Elt Ideal) ℓ)

/-- The logits summed over the batch axis, kept as a 4 x 1 x 1000 array. -/
def batchSum (X : S4x8192x1000.Idx → EReal) : S4x1x1000.Idx → EReal := fun i =>
  ∑ b : Fin 8192, X (ix3 (⟨(i 0).val, (i 0).isLt⟩ : Fin 4) b (⟨(i 2).val, (i 2).isLt⟩ : Fin 1000))

/-- Entry (e, 0, l) of the batch sum is the sum of all 8192 entries of column (e, l). -/
theorem batchSum_col (X : S4x8192x1000.Idx → EReal) (i : S4x1x1000.Idx) (e : ℕ) (l : Fin 1000)
    (h0 : (i 0).val = e) (h2 : (i 2).val = l.val) :
    batchSum X i = ∑ b ∈ Finset.range 8192, col X e l b := by
  have he : e < 4 := h0 ▸ (i 0).isLt
  unfold batchSum
  rw [Finset.sum_range]
  refine Finset.sum_congr rfl fun b _ => ?_
  unfold col
  rw [dif_pos ⟨he, b.isLt⟩]
  refine congrArg X ?_
  funext a
  apply Fin.ext
  match a with
  | ⟨0, _⟩ => exact h0
  | ⟨1, _⟩ => rfl
  | ⟨2, _⟩ => exact h2

/-- Where the output window's block sits at point t: exit t / 8. -/
theorem out_position : ∀ t : Fin cfg0.N, win0_1.index t (0 : Fin 3) = t.val / 8
    ∧ win0_1.index t (1 : Fin 3) = 0 ∧ win0_1.index t (2 : Fin 3) = 0 :=
  (by decide +kernel : ∀ t : Fin grid0.N, _)

/-- What a write-back writes is its block of the batch sum: it happens after the exit's eighth tile, when the
    running sum has reached the whole column. -/
theorem flushed_eq (c : Dev nD) (t : Fin cfg0.N) (hf : (cfg0.win 1).flush t = true) :
    (dats m 0 c).flushed 1 t = ((cfg0.win 1).blk t).view.read (Elt Ideal) (batchSum (V m c main_arg0)) := by
  have h7 : t.val % 8 = 7 := (flush0_1 t).mp hf
  obtain ⟨e0, e1, e2⟩ := out_position t
  show (cfg0.win 1).cut (grid0.coords t) ((dats m 0 c).after 1 t) = _
  rw [after0_1]
  funext y
  rw [View.read_apply]
  show outsAt0 m c t.val t.isLt y = batchSum (V m c main_arg0) (((cfg0.win 1).blk t).view.emb y)
  have hy0 : (y 0).val < 1 := (y 0).isLt
  have hy1 : (y 1).val < 1 := (y 1).isLt
  obtain ⟨l, rfl⟩ : ∃ l : Fin 1000, y = ix3 (0 : Fin 1) (0 : Fin 1) l :=
    ⟨⟨(y 2).val, (y 2).isLt⟩, funext fun a => Fin.ext (by
      match a with
      | ⟨0, _⟩ => show (y 0).val = 0; omega
      | ⟨1, _⟩ => show (y 1).val = 0; omega
      | ⟨2, _⟩ => rfl)⟩
  rw [running m c t.val t.isLt l, h7]
  refine (batchSum_col _ _ (t.val / 8) l ?_ ?_).symm
  · show win0_1.index t 0 * 1 + 1 * 0 = t.val / 8; omega
  · show win0_1.index t 2 * 1000 + 1 * l.val = l.val; omega

/-- Every entry of the result array lies in the block some write-back writes: entry (e, 0, l) in the block of
    point 8 e + 7. -/
theorem covered (i : S4x1x1000.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 1000 := (i 2).isLt
  have hN : cfg0.N = 32 := N_0
  obtain ⟨t, ht⟩ : ∃ t : Fin cfg0.N, t.val = 8 * (i 0).val + 7 := ⟨⟨8 * (i 0).val + 7, by omega⟩, rfl⟩
  obtain ⟨e0, e1, e2⟩ := out_position t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t 0 * 1 ≤ (i 0).val ∧ (i 0).val < win0_1.index t 0 * 1 + 1; omega
  | ⟨1, _⟩ => show win0_1.index t 1 * 1 ≤ (i 1).val ∧ (i 1).val < win0_1.index t 1 * 1 + 1; omega
  | ⟨2, _⟩ => show win0_1.index t 2 * 1000 ≤ (i 2).val ∧ (i 2).val < win0_1.index t 2 * 1000 + 1000; omega

/-- After the run the result array of the kernel holds the batch sum of the logits. -/
theorem final_sum (c : Dev nD) : (dats m 0 c).arrAt 1 cfg0.N = batchSum (V m c main_arg0) :=
  (dats m 0 c).arrAt_eq_of_cover 1 (batchSum (V m c main_arg0)) (flushed_eq m c) covered

end Cert.KernelIdeal.Acc

end
-- ==== Proof.KernelRun.lean ====
/-
  The kernel's run, read: its result is the loss of the logits' batch sums.

  After the kernel's region the result array holds the batch sum (BatchSum); the host operations that follow
  reshape it to 4 x 1000 and apply exactly the reference's chain of operations, so the program's result is
  lossOf (the reshaped batch sum) (the targets).  The reference's own batch sum is the same array: at (e, l)
  both are the sum over b < 8192 of X(e, b, l) (the reshape only drops the unit axis).
-/
import proofs.«101069_j24172075942190_1_alg».proof.Proof.BatchSum
import proofs.«101069_j24172075942190_1_alg».proof.Proof.RefSum
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Acc

open Cert.KernelIdeal Cert.KernelIdeal.Gen
open Cert.ReferenceIdeal.RefValue (lossOf)

variable (m : (ℓ : Loc nD τ sig) → Buf (Elt Ideal) ℓ) (ρ : Dev nD → PrngReg)

/-- The batch sums as the host operations after the region see them: 4 x 1000. -/
abbrev sums (X : S4x8192x1000.Idx → EReal) : FVec Ideal S4x1000 .f32 :=
  shapeCast S4x1000 (batchSum X) shapeCasts_S4x1x1000_S4x1000

set_option maxHeartbeats 2000000 in
/-- The program's result after the host operations that follow the region. -/
theorem result_value (c : Dev nD) :
    Pipeline.afterTail₀ cfgs (dats m) 0 (V0 m) [hostOps1] c main_v21
      = lossOf (sums (m ((c : Thread nD τ).loc main_arg0))) (m ((c : Thread nD τ).loc main_arg1)) := by
  have hv0 : Pipeline.withArrays (cfgs 0).spec c (V0 m c) (fun w => (dats m 0 c).arrAt w (cfgs 0).N) (Proc.devRef .tc main_v0)
      = batchSum (m ((c : Thread nD τ).loc main_arg0)) :=
    (Pipeline.withArrays_arr spec0 launch0.win.arr_inj c _ _ 1).trans (final_sum m c)
  have hv1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v21) = _
  after_results_simp
  rw [hv0, hv1]
  rfl

/-- The kernel's run: the result at the loss of the batch sums, the arguments unchanged. -/
theorem run : θ_run defs (onTc (τ := τ) (main (F := Ideal))) ⟨m, fun _ => 0, ρ⟩ fun r => ∀ c : Dev nD,
      r.2.mem ((c.tc : Thread nD τ).loc main_v21)
        = lossOf (sums (m ((c : Thread nD τ).loc main_arg0))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (Pipeline.mem_restRefs_of main_v21 (by decide) (by decide))).trans (result_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

/-- The reference's batch sum is the kernel's, reshaped: at exit e and class l both are the sum over the batch
    of X(e, b, l). -/
theorem sums_agree (X : S4x8192x1000.Idx → EReal) :
    Host.reduceAdd (F := Ideal) X (constant (F := Ideal) Cert.ReferenceIdeal.S_ .f32 0x00000000#32)
        Cert.ReferenceIdeal.Gen.reducesTo_S4x8192x1000_S4x1000_d1 Cert.ReferenceIdeal.Gen.h_S_
      = sums X := by
  funext i
  refine (Cert.ReferenceIdeal.RefValue.sum_apply X i).trans ?_
  refine Eq.symm ((shapeCast_apply _ _ i
    (ix3 (⟨(i 0).val, (i 0).isLt⟩ : Fin 4) (0 : Fin 1) (⟨(i 1).val, (i 1).isLt⟩ : Fin 1000)) ?_).trans ?_)
  · rw [Shape.rowMajor_val_three, Shape.rowMajor_val_two]
    show ((i 0).val * 1 + 0) * 1000 + (i 1).val = (i 0).val * 1000 + (i 1).val
    omega
  · unfold batchSum
    exact Finset.sum_congr rfl fun b _ => congrArg X (funext fun a => Fin.ext (by
      match a with
      | ⟨0, _⟩ => rfl
      | ⟨1, _⟩ => rfl
      | ⟨2, _⟩ => rfl))

end Cert.KernelIdeal.Acc

end
-- ==== Proof.lean ====
/-
  Mean-absolute calibration loss per exit: the kernel against its reference, over the extended reals.

  Both programs compute, for each of the 4 exits e,
      loss(e) = (1 / 1000) * sum over classes l of | S(e, l) / 8192 - H(l) / 8192 |,
  where S(e, l) is the sum of the logits X(e, b, l) over the batch b < 8192 and H is the histogram of the
  targets.  They differ only in how S is obtained.  The kernel walks a 4 x 8 grid, exit by exit; at each point
  it adds the column sums of one 1024-row tile of the logits to an output block that is zeroed at the first
  tile of an exit and written back after the last one, so the block passes through the partial sums
  S_k(e, l) = sum over b < 1024 k of X(e, b, l), k = 1 .. 8 (Running), and the result array ends at S
  (BatchSum).  The reference sums the whole batch axis at once from 0.  Over the extended reals addition is
  commutative and associative and 0 is neutral, so both are the same sum (KernelRun.sums_agree); no
  cancellation or distributivity is involved and the finiteness of the inputs is never used.  Everything after
  S is the same chain of host operations in both programs and is carried as one function (RefSum.lossOf).
  The idealization rewrote nothing, so the kernel and its idealization are the same text (preserves is True).
-/
import proofs.«101069_j24172075942190_1_alg».proof.Defs
import proofs.«101069_j24172075942190_1_alg».proof.Proof.Gen.Kernel
import proofs.«101069_j24172075942190_1_alg».proof.Proof.Gen.Kernel.Frame
import proofs.«101069_j24172075942190_1_alg».proof.Proof.Gen.KernelIdeal
import proofs.«101069_j24172075942190_1_alg».proof.Proof.Gen.KernelIdeal.Frame
import proofs.«101069_j24172075942190_1_alg».proof.Proof.Gen.ReferenceIdeal
import proofs.«101069_j24172075942190_1_alg».proof.Proof.Gen.ReferenceIdeal.Run
import proofs.«101069_j24172075942190_1_alg».proof.Proof.Gen.ReferenceIdeal.Read
import proofs.«101069_j24172075942190_1_alg».proof.Proof.Gen.Pre_finite_inputs
import proofs.«101069_j24172075942190_1_alg».proof.Proof.RefSum
import proofs.«101069_j24172075942190_1_alg».proof.Proof.KernelRun

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: it runs, and writes only its own results. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- Both programs end at the loss of the batch sums of the logits: the kernel's accumulated sums and the
    reference's one-shot sums are the same array. -/
theorem algebraic : Cert.algebraic_KernelIdeal_ReferenceIdeal := by
  intro m ρ m' ρ' _ hagree
  refine ⟨fun c => Cert.ReferenceIdeal.RefValue.lossOf
      (Cert.KernelIdeal.Acc.sums (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v20_eq _ _).trans ?_
  rw [Cert.ReferenceIdeal.RefValue.result_eq, Cert.KernelIdeal.Acc.sums_agree]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
